-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x12x5000 : Shape := ⟨4, ![16, 64, 12, 5000]⟩
abbrev S5000x5000 : Shape := ⟨2, ![5000, 5000]⟩
abbrev S64x64 : Shape := ⟨2, ![64, 64]⟩
abbrev S64 : Shape := ⟨1, ![64]⟩
abbrev S_ : Shape := ⟨0, ![]⟩

class Facts : Prop where
  bcast_S_S16x64x12x5000 : S_.BroadcastsInDim S16x64x12x5000 (![] : Fin 0 → Fin S16x64x12x5000.rank)
  reducesTo_S16x64x12x5000_S_d0_1_2_3 : S16x64x12x5000.ReducesTo [0, 1, 2, 3] S_
  h_S_ : 0 < S_.numel
  bcast_S_S5000x5000 : S_.BroadcastsInDim S5000x5000 (![] : Fin 0 → Fin S5000x5000.rank)
  reducesTo_S5000x5000_S_d0_1 : S5000x5000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x64x12x5000 .f32) (main_arg1 : FVec F S5000x5000 .f32) (main_arg2 : FVec F S64x64 .f32) (main_arg3 : FVec F S64 .f32) : IVec S_ 1 :=
  let main_v0 : FVec F S16x64x12x5000 .f32 := Host.absf main_arg0
  let main_cst : FVec F S_ .f32 := constant S_ .f32 0x7F800000#32
  let main_v1 : FVec F S16x64x12x5000 .f32 := broadcastInDim S16x64x12x5000 ![] bcast_S_S16x64x12x5000 main_cst
  let main_v2 : IVec S16x64x12x5000 1 := cmpf .olt main_v0 main_v1
  let main_c : IVec S_ 1 := constantI S_ 1 1#1
  let main_v3 : IVec S_ 1 := (fun x v => Host.reduce IntOp.andi x v reducesTo_S16x64x12x5000_S_d0_1_2_3 h_S_) main_v2 main_c
  let main_v4 : FVec F S5000x5000 .f32 := Host.absf main_arg1
  let main_cst_0 : FVec F S_ .f32 := constant S_ .f32 0x7F800000#32
  let main_v5 : FVec F S5000x5000 .f32 := broadcastInDim S5000x5000 ![] bcast_S_S5000x5000 main_cst_0
  let main_v6 : IVec S5000x5000 1 := cmpf .olt main_v4 main_v5
  let main_c_1 : IVec S_ 1 := constantI S_ 1 1#1
  let main_v7 : IVec S_ 1 := (fun x v => Host.reduce IntOp.andi x v reducesTo_S5000x5000_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x64x12x5000 : Shape := ⟨4, ![16, 64, 12, 5000]⟩
abbrev S5000x5000 : Shape := ⟨2, ![5000, 5000]⟩
abbrev S64x64 : Shape := ⟨2, ![64, 64]⟩
abbrev S64 : Shape := ⟨1, ![64]⟩
abbrev S960000x64 : Shape := ⟨2, ![960000, 64]⟩
abbrev S8000x64 : Shape := ⟨2, ![8000, 64]⟩
abbrev S5000x12288 : Shape := ⟨2, ![5000, 12288]⟩
abbrev S1x64 : Shape := ⟨2, ![1, 64]⟩
abbrev S8x64 : Shape := ⟨2, ![8, 64]⟩
abbrev S512 : Shape := ⟨1, ![512]⟩
abbrev S1000x5000 : Shape := ⟨2, ![1000, 5000]⟩
abbrev S5000x512 : Shape := ⟨2, ![5000, 512]⟩
abbrev S1000x512 : Shape := ⟨2, ![1000, 512]⟩
abbrev S1x512 : Shape := ⟨2, ![1, 512]⟩

abbrev nBuf : Space → Nat
  | .hbm => 13
  | .vmem => 12
  | .smem => 0
  | _ => 0

abbrev bufTy : (tb : Table) → Fin (tcTables nBuf tb) → BufTy
  | .hbm, ⟨0, _⟩ => ⟨S16x64x12x5000, .f32⟩
  | .hbm, ⟨1, _⟩ => ⟨S5000x5000, .f32⟩
  | .hbm, ⟨2, _⟩ => ⟨S64x64, .f32⟩
  | .hbm, ⟨3, _⟩ => ⟨S64, .f32⟩
  | .hbm, ⟨4, _⟩ => ⟨S960000x64, .f32⟩
  | .hbm, ⟨5, _⟩ => ⟨S960000x64, .bf16⟩
  | .hbm, ⟨6, _⟩ => ⟨S5000x12288, .bf16⟩
  | .hbm, ⟨7, _⟩ => ⟨S5000x5000, .bf16⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S5000x12288, .f32⟩
  | .hbm, ⟨12, _⟩ => ⟨S960000x64, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .bf16⟩
  | .local _ .vmem, ⟨4, _⟩ => ⟨S8000x64, .bf16⟩
  | .local _ .vmem, ⟨5, _⟩ => ⟨S1000x5000, .bf16⟩
  | .local _ .vmem, ⟨6, _⟩ => ⟨S1000x5000, .bf16⟩
  | .local _ .vmem, ⟨7, _⟩ => ⟨S5000x512, .bf16⟩
  | .local _ .vmem, ⟨8, _⟩ => ⟨S5000x512, .bf16⟩
  | .local _ .vmem, ⟨9, _⟩ => ⟨S512, .f32⟩
  | .local _ .vmem, ⟨10, _⟩ => ⟨S1000x512, .f32⟩
  | .local _ .vmem, ⟨11, _⟩ => ⟨S1000x512, .f32⟩
  | _, _ => ⟨S16x64x12x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![5, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1000x5000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x64x12x5000_S960000x64 : S16x64x12x5000.ShapeCasts S960000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  packedbf16_S8000x64_S8000x64_0_0 : (Rect.unit (s := S8000x64) ![0, 0] S8000x64.size inb_S8000x64_S8000x64_0_0).PackedRows (EltTy.packing .bf16)
  shapeCasts_S960000x64_S5000x12288 : S960000x64.ShapeCasts S5000x12288
  shapeCasts_S64_S1x64 : S64.ShapeCasts S1x64
  bcast_S1x64_S8x64_0_1 : S1x64.BroadcastsInDim S8x64 (![0, 1] : Fin 2 → Fin S8x64.rank)
  shapeCasts_S8x64_S512 : S8x64.ShapeCasts S512
  inb_S1000x5000_S1000x5000_0_0 : ∀ a, (![0, 0] : Fin 2 → Nat) a + S1000x5000.size a ≤ S1000x5000.size a
  h_S1000x5000 : 0 < S1000x5000.numel
  shapeCasts_S1000x5000_S1000x5000 : S1000x5000.ShapeCasts S1000x5000
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  shapeCasts_S5000x12288_S960000x64 : S5000x12288.ShapeCasts S960000x64
  dot_S8000x64_S64x64_S8000x64_1_0_0_1_n_n_wf : DotDims.WF S8000x64 S64x64 S8000x64 [1] [0] [0] [1] [] []
  dot_S1000x5000_S5000x512_S1000x512_1_0_0_1_n_n_wf : DotDims.WF S1000x5000 S5000x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S960000x64.size a
  hwx0_0 : ∀ i : grid0.Coords, EltTy.bits .f32 = 32 ∨ (Rect.block (s := S960000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S960000x64.size a
  hwx0_2 : ∀ i : grid0.Coords, EltTy.bits .bf16 = 32 ∨ (Rect.block (s := S960000x64) S8000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x5000.size a ≤ S5000x5000.size a
  hwx1_0 : ∀ i : grid1.Coords, EltTy.bits .bf16 = 32 ∨ (Rect.block (s := S5000x5000) S1000x5000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x512.size a ≤ S5000x12288.size a
  hwx1_1 : ∀ i : grid1.Coords, EltTy.bits .bf16 = 32 ∨ (Rect.block (s := S5000x12288) S5000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S5000x12288.size a
  hwx1_3 : ∀ i : grid1.Coords, EltTy.bits .f32 = 32 ∨ (Rect.block (s := S5000x12288) S1000x512.size (cc1_transform_3 i) (hinb1_3 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S1000x5000_S5000x512_S1000x512_1_0_0_1_n_n : DotDims S1000x5000 S5000x512 S1000x512 where
  lhsContracting := [1]
  rhsContracting := [0]
  lhsNonContracting := [0]
  rhsNonContracting := [1]
  lhsBatch := []
  rhsBatch := []
  wf := dot_S1000x5000_S5000x512_S1000x512_1_0_0_1_n_n_wf

abbrev win0_0 : Pipeline.Window sig grid0 :=
  Pipeline.Window.ofSpec (Memref.whole main_v0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1000x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x12x5000 : Shape := ⟨4, ![16, 64, 12, 5000]⟩
abbrev S5000x5000 : Shape := ⟨2, ![5000, 5000]⟩
abbrev S64x64 : Shape := ⟨2, ![64, 64]⟩
abbrev S64 : Shape := ⟨1, ![64]⟩
abbrev S960000x64 : Shape := ⟨2, ![960000, 64]⟩
abbrev S5000x12288 : Shape := ⟨2, ![5000, 12288]⟩
abbrev S1x64 : Shape := ⟨2, ![1, 64]⟩

abbrev nBuf : Space → Nat
  | .hbm => 12
  | .vmem => 0
  | .smem => 0
  | _ => 0

abbrev bufTy : (tb : Table) → Fin (tcTables nBuf tb) → BufTy
  | .hbm, ⟨0, _⟩ => ⟨S16x64x12x5000, .f32⟩
  | .hbm, ⟨1, _⟩ => ⟨S5000x5000, .f32⟩
  | .hbm, ⟨2, _⟩ => ⟨S64x64, .f32⟩
  | .hbm, ⟨3, _⟩ => ⟨S64, .f32⟩
  | .hbm, ⟨4, _⟩ => ⟨S960000x64, .f32⟩
  | .hbm, ⟨5, _⟩ => ⟨S960000x64, .f32⟩
  | .hbm, ⟨6, _⟩ => ⟨S5000x12288, .f32⟩
  | .hbm, ⟨7, _⟩ => ⟨S5000x12288, .f32⟩
  | .hbm, ⟨8, _⟩ => ⟨S960000x64, .f32⟩
  | .hbm, ⟨9, _⟩ => ⟨S1x64, .f32⟩
  | .hbm, ⟨10, _⟩ => ⟨S960000x64, .f32⟩
  | .hbm, ⟨11, _⟩ => ⟨S960000x64, .f32⟩
  | _, _ => ⟨S16x64x12x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S16x64x12x5000_S960000x64 : S16x64x12x5000.ShapeCasts S960000x64
  shapeCasts_S960000x64_S5000x12288 : S960000x64.ShapeCasts S5000x12288
  shapeCasts_S5000x12288_S960000x64 : S5000x12288.ShapeCasts S960000x64
  bcast_S64_S1x64_1 : S64.BroadcastsInDim S1x64 (![1] : Fin 1 → Fin S1x64.rank)
  bcast_S1x64_S960000x64_0_1 : S1x64.BroadcastsInDim S960000x64 (![0, 1] : Fin 2 → Fin S960000x64.rank)
  dot_S960000x64_S64x64_S960000x64_1_0_0_1_n_n_wf : DotDims.WF S960000x64 S64x64 S960000x64 [1] [0] [0] [1] [] []
  dot_S5000x5000_S5000x12288_S5000x12288_1_0_0_1_n_n_wf : DotDims.WF S5000x5000 S5000x12288 S5000x12288 [1] [0] [0] [1] [] []

variable [Facts₀]

def dot_S960000x64_S64x64_S960000x64_1_0_0_1_n_n : DotDims S960000x64 S64x64 S960000x64 where
  lhsContracting := [1]
  rhsContracting := [0]
  lhsNonContracting := [0]
  rhsNonContracting := [1]
  lhsBatch := []
  rhsBatch := []
  wf := dot_S960000x64_S64x64_S960000x64_1_0_0_1_n_n_wf
def dot_S5000x5000_S5000x12288_S5000x12288_1_0_0_1_n_n : DotDims S5000x5000 S5000x12288 S5000x12288 where
  lhsContracting := [1]
  rhsContracting := [0]
  lhsNonContracting := [0]
  rhsNonContracting := [1]
  lhsBatch := []
  rhsBatch := []
  wf := dot_S5000x5000_S5000x12288_S5000x12288_1_0_0_1_n_n_wf

class Facts : Prop extends Facts₀ where

variable [Facts]
-- ==== Proof.RunValue.lean ====
/-
  The whole program's run, read at every buffer it leaves.

  The program is five segments: a reshape, the first kernel region, five layout operations, the second kernel region and a
  last reshape. Every weakly fair execution runs them in order, terminates, and ends with every unscoped buffer holding the
  contents the fold of the segments leaves there (`Gen.W5`): a host operation's result where one wrote it, a region's
  write-backs folded into its result array, everything else as launched. So any property of final memories that follows from
  that reading holds of every execution (`run_reading`). Read at the result buffer it gives the value the program returns,
  and at the four argument buffers what they held at launch (`run_result`).
-/
import proofs.«178421_j17841294148275_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A final memory read the way the last segment leaves it: every unscoped buffer of every core at the fold's contents. -/
def EndsAtFold (s : MemSt nD τ sig (Elt F)) : Prop :=
  ∀ c : Dev nD, ∀ b ∈ Pipeline.ucRefs τ sig, s.mem (((c : Thread nD τ)).1, b) = W5 m ρ c b

-- the launch theorem's implicit arguments are found by unifying its conclusion with this one, which takes unfolding
-- plain definitions in a metavariable's type
set_option backward.isDefEq.respectTransparency.types false in
/-- From any memory with zero counters, every weakly fair execution of the program terminates, nothing faulting, in a state
    with any property `Q` that every memory ending at the fold has. The five segments, the regions' proof data and the thread
    states between them are the generated ones; what is supplied here is the launch (the staging cells' ghost state and the
    first thread state dealt from the launch memory), the last thread state passed on unchanged, and its reading against the
    final memory buffer by buffer. -/
theorem run_reading {Q : PUnit × MemSt nD τ sig (Elt F) → Prop}
    (hQ : ∀ s : MemSt nD τ sig (Elt F), EndsAtFold m ρ s → Q (⟨⟩, s)) :
    θ_run defs (onTc (τ := τ) (main (F := F))) ⟨m, fun _ => 0, ρ⟩ Q := by
  -- the ghost state the launch hands to the two pipelines' staging cells
  let u₀ := initOf (Pipeline.cells cfgs cellOf_inj) (Pipeline.launchToks cfgs cellOf_inj)
  -- the first thread state: the unscoped buffers as launched, the generator register and an empty debt riding along
  let Tfirst : Dev nD → sProp 𝕄 := fun c =>
    iprop(StableHlo.held (c : Thread nD τ) (Pipeline.ucRefs τ sig) (W0 m ρ c) ∗ R c)
  refine Pipeline.θ_run_regions_kit (pcfgs (F := F)) adm (pdats m ρ) () cellOf_inj emb₁ defs₀ 𝒱₀ L lv m ρ main (segs m ρ)
    ?hmain ?hnd (O₀ := 0) (hL := fun _ _ => rfl) (G := fun _ => iprop(emp)) (u₀ := u₀) ?hu (T₀ := Tfirst) (Tₙ := Tₙ m ρ)
    ?hch ?hinit (QY := fun c s => ∀ b ∈ Pipeline.ucRefs τ sig, s.mem (((c : Thread nD τ)).1, b) = W5 m ρ c b) ?hfin
    (hQ := fun s h => hQ s h)
  case hmain =>
    -- @main is the run of the segments
    intro c K
    rw [main_run m ρ c]
  case hnd =>
    -- the two regions enter different pipelines
    simp only [segs, Pipeline.Seg.pipes_host, Pipeline.Seg.pipes_region, Pipeline.Seg.pipes_nil]
    decide
  case hu =>
    -- the launch element is the pipeline library's own; no further ghost resource is dealt to a core
    iintro Hown
    imodintro
    isplitl [Hown]
    · iapply (show (ownU u₀ : sProp 𝕄) ⊢ BI.own (emb₁ u₀) from .rfl)
      iexact Hown
    · iapply (show (BI.emp : sProp 𝕄) ⊢ bigSep Finset.univ (fun _ : Dev nD => (BI.emp : sProp 𝕄)) from by
        rw [BI.bigSep_emp_const])
      iempintro
  case hch =>
    -- each segment starts from the state the one before it ends in; after the last, the debt is split off
    refine ⟨fun _ => .rfl, fun _ => .rfl, fun _ => .rfl, fun _ => .rfl, fun _ => .rfl, fun c => ?_⟩
    dsimp only [Pipeline.Seg.post, hseg, Pipeline.HostSeg.ofOps]
    iintro ⟨Hbufs, Hreg, Hdebt⟩
    isplitl [Hbufs Hreg]
    · isplitl [Hbufs]
      · iexact Hbufs
      · iexact Hreg
    · iexact Hdebt
  case hinit =>
    -- per core: the launch's unscoped buffers are the first state's, the register and the empty debt ride along
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Hdebt, -, Hreg, -⟩, -⟩
    imodintro
    isplitl [Hbufs]
    · iexact Hbufs
    isplitl [Hreg]
    · iexists _
      iexact Hreg
    · iexists ∅
      iexact Hdebt
  case hfin =>
    -- holding every unscoped buffer at the fold's contents beside the final state says the state's memory has them
    intro c sfin
    iintro ⟨⟨Hbufs, -⟩, Hstate⟩
    unfold StableHlo.held
    imodintro
    iapply (pointsTo_read_all (Pipeline.ucRefs τ sig) (fun b => (((c : Thread nD τ)).1, b)) (W5 m ρ c) sfin)
    isplitl [Hbufs] <;> iassumption

/-- The result buffer ends at what the fold leaves there, and the four arguments end as launched. -/
theorem run_result : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_reading m ρ fun s h c =>
    ⟨h c _ (mem_uc main_v8 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩

end Cert.KernelIdeal.Whole

end
-- ==== Proof.Spec.lean ====
/-
  The value the kernel program computes, as one function of its four argument arrays, over the extended reals.

  With x the [16, 64, 12, 5000] input, Fl the 5000 x 5000 filter, W the 64 x 64 weights and b the 64 biases:
    X   = x re-laid row-major as 960000 x 64
    H   = X W                      entry (r, c) = sum over k < 64   of X[r, k] * W[k, c]          (`rowsTimes`)
    H'  = H re-laid row-major as 5000 x 12288
    row = the 64 biases repeated 8 times, a row of 512 numbers: row[n] = b[n mod 64]              (`tileRow`)
    A   = Fl H' + row              entry (r, n) = sum over k < 5000 of Fl[r, k] * H'[k, n] + row[n mod 512]   (`filterTimes`)
    out = A re-laid row-major as 960000 x 64                                                      (`kernelValue`)
  The row has period 64 and 512 is a multiple of 64, so the number added at column n is b[n mod 64].
-/
import proofs.«178421_j17841294148275_2_alg».proof.Proof.Gen.KernelIdeal
import Idealize.ShloMosaic.Lib.Pipeline.Value
import Idealize.ShloMosaic.Lib.ValueIdx
import Idealize.ShloMosaic.Lib.ValueLayout

noncomputable section

namespace Cert.KernelIdeal.Spec

open Cert.KernelIdeal Cert.KernelIdeal.Gen Idealize.ShloMosaic Idealize.ShloMosaic.ValueIdx

/-- Rows times a 64 x 64 matrix: entry (r, c) is the sum over k of A[r, k] * B[k, c]. -/
def rowsTimes (A : S960000x64.Idx → EReal) (B : S64x64.Idx → EReal) : S960000x64.Idx → EReal :=
  fun i => ∑ k : Fin 64, A (ix2 (i 0) k) * B (ix2 k (i 1))

/-- A column's position inside its tile of 512 columns. -/
abbrev inTile (n : Fin 12288) : Fin 512 := ⟨n.val % 512, Nat.mod_lt _ (by decide)⟩

/-- The filter times an array, plus a row of 512 numbers repeated along the columns: entry (r, n) is the sum over k of
    Fl[r, k] * H[k, n], plus row[n mod 512]. -/
def filterTimes (Fl : S5000x5000.Idx → EReal) (H : S5000x12288.Idx → EReal) (row : S512.Idx → EReal) : S5000x12288.Idx → EReal :=
  fun i => (∑ k : Fin 5000, Fl (ix2 (i 0) k) * H (ix2 k (i 1))) + row (ix1 (inTile (i 1)))

/-- The 64 biases repeated 8 times: given a leading unit axis, repeated down 8 rows, and the 8 x 64 array re-laid as 512. -/
def tileRow (b : S64.Idx → EReal) : S512.Idx → EReal :=
  shapeCast S512 (broadcastInDim S8x64 ![0, 1] bcast_S1x64_S8x64_0_1 (shapeCast S1x64 b shapeCasts_S64_S1x64)) shapeCasts_S8x64_S512

/-- The n-th number of the row is the bias at n mod 64. -/
theorem tileRow_apply (b : S64.Idx → EReal) (n : Fin 512) :
    tileRow b (ix1 n) = b (ix1 (⟨n.val % 64, Nat.mod_lt _ (by decide)⟩ : Fin 64)) := by
  have hn : n.val < 512 := n.isLt
  unfold tileRow
  refine (shapeCast_apply _ shapeCasts_S8x64_S512 (ix1 n)
    (ix2 (⟨n.val / 64, by omega⟩ : Fin 8) (⟨n.val % 64, Nat.mod_lt _ (by decide)⟩ : Fin 64)) (by
      rw [Shape.rowMajor_val_two, Shape.rowMajor_val_one]
      show n.val / 64 * 64 + n.val % 64 = n.val
      omega)).trans ?_
  refine (broadcastInDim_apply _ bcast_S1x64_S8x64_0_1 _ _
    (ix2 (0 : Fin 1) (⟨n.val % 64, Nat.mod_lt _ (by decide)⟩ : Fin 64)) (fun a => match a with
      | ⟨0, _⟩ => by show 0 = if (1 : Nat) = 1 then 0 else n.val / 64; rw [if_pos rfl]
      | ⟨1, _⟩ => by show n.val % 64 = if (64 : Nat) = 1 then 0 else n.val % 64; rw [if_neg (by decide)])).trans ?_
  exact shapeCast_a_1a_apply b shapeCasts_S64_S1x64 0 _

/-- The program's value: the six steps of the header composed. -/
def kernelValue (x : S16x64x12x5000.Idx → EReal) (fl : S5000x5000.Idx → EReal) (w : S64x64.Idx → EReal) (b : S64.Idx → EReal) :
    S960000x64.Idx → EReal :=
  shapeCast S960000x64
    (filterTimes fl
      (shapeCast S5000x12288 (rowsTimes (shapeCast S960000x64 x shapeCasts_S16x64x12x5000_S960000x64) w) shapeCasts_S960000x64_S5000x12288)
      (tileRow b))
    shapeCasts_S5000x12288_S960000x64

end Cert.KernelIdeal.Spec

end
-- ==== Proof.Payloads.lean ====
/-
  What each of the two kernel bodies stores, read at one entry, when floats are extended reals.

  The first body multiplies an 8000 x 64 block of rows by the whole 64 x 64 weight matrix: its stored entry (p, q) is the
  sum over k < 64 of block[p, k] * weight[k, q] (the product starts from a zero accumulator, and the rounding to the narrower
  float format on the way out is the identity on extended reals).
  The second body multiplies a 1000 x 5000 block of filter rows by a 5000 x 512 block of columns and adds one row of 512
  numbers to every row of the product: its stored entry (p, q) is the sum over k < 5000 of rows[p, k] * cols[k, q], plus
  row[q] (the row enters as a length-512 vector given a leading unit axis and then repeated down the 1000 rows).
-/
import proofs.«178421_j17841294148275_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.ValueIdx

/-- The dimension record of the first body's product: rows x 64 times 64 x 64. -/
abbrev dotLin : DotDims S8000x64 S64x64 S8000x64 := dot_S8000x64_S64x64_S8000x64_1_0_0_1_n_n
/-- The dimension record of the second body's product: 1000 x 5000 times 5000 x 512. -/
abbrev dotAgg : DotDims S1000x5000 S5000x512 S1000x512 := dot_S1000x5000_S5000x512_S1000x512_1_0_0_1_n_n

/-! ## The operand indices of the first product at output entry `i` and contraction index `q` -/

theorem lin_lhs0 (i : S8000x64.Idx) (q : dotLin.contr.Idx) : (dotLin.lhsIdx i q 0).val = (i 0).val := by
  unfold DotDims.lhsIdx
  rw [dif_neg (show ¬(0 : Fin S8000x64.rank) ∈ dotLin.lhsBatch by decide), dif_pos (show (0 : Fin S8000x64.rank) ∈ dotLin.lhsNonContracting by decide)]
  rfl
theorem lin_lhs1 (i : S8000x64.Idx) (q : dotLin.contr.Idx) : (dotLin.lhsIdx i q 1).val = (q ⟨0, by decide⟩).val :=
  dotLin.lhsIdx_val_of_single rfl i q
theorem lin_rhs0 (i : S8000x64.Idx) (q : dotLin.contr.Idx) : (dotLin.rhsIdx i q 0).val = (q ⟨0, by decide⟩).val :=
  dotLin.rhsIdx_val_of_single rfl i q
theorem lin_rhs1 (i : S8000x64.Idx) (q : dotLin.contr.Idx) : (dotLin.rhsIdx i q 1).val = (i 1).val := by
  unfold DotDims.rhsIdx
  rw [dif_neg (show ¬(1 : Fin S64x64.rank) ∈ dotLin.rhsBatch by decide), dif_pos (show (1 : Fin S64x64.rank) ∈ dotLin.rhsNonContracting by decide)]
  rfl

/-- Entry (p, q) of the first body's stored block: the p-th row of the block against the q-th column of the weights. -/
theorem lin_entry (x0 : FVec Ideal S8000x64 .f32) (x1 : FVec Ideal S64x64 .f32) (p : Fin 8000) (q : Fin 64) :
    k0_pay1 (F := Ideal) x0 x1 (ix2 p q) = ∑ k : Fin 64, x0 (ix2 p k) * x1 (ix2 k q) := by
  unfold k0_pay1
  show FloatOps.matmul dotLin none (shapeCast S8000x64 x0 shapeCasts_S8000x64_S8000x64) x1 (constant S8000x64 .f32 0x00000000#32) (ix2 p q) = _
  rw [shapeCast_self]
  refine (Ideal.matmul_constant_zero_apply dotLin none x0 x1 (ix2 p q)).trans ?_
  rw [← Equiv.sum_comp (contrEquiv1 dotLin 64 rfl rfl).symm]
  refine Finset.sum_congr rfl fun k _ => ?_
  have hk := contrEquiv1_symm_val dotLin 64 rfl rfl k
  have el : dotLin.lhsIdx (ix2 p q) ((contrEquiv1 dotLin 64 rfl rfl).symm k) = ix2 p k := funext fun a => Fin.ext (by
    match a with
    | ⟨0, _⟩ => exact lin_lhs0 _ _
    | ⟨1, _⟩ => exact (lin_lhs1 _ _).trans hk)
  have er : dotLin.rhsIdx (ix2 p q) ((contrEquiv1 dotLin 64 rfl rfl).symm k) = ix2 k q := funext fun a => Fin.ext (by
    match a with
    | ⟨0, _⟩ => exact (lin_rhs0 _ _).trans hk
    | ⟨1, _⟩ => exact lin_rhs1 _ _)
  rw [el, er]

/-! ## The operand indices of the second product -/

theorem agg_lhs0 (i : S1000x512.Idx) (q : dotAgg.contr.Idx) : (dotAgg.lhsIdx i q 0).val = (i 0).val := by
  unfold DotDims.lhsIdx
  rw [dif_neg (show ¬(0 : Fin S1000x5000.rank) ∈ dotAgg.lhsBatch by decide), dif_pos (show (0 : Fin S1000x5000.rank) ∈ dotAgg.lhsNonContracting by decide)]
  rfl
theorem agg_lhs1 (i : S1000x512.Idx) (q : dotAgg.contr.Idx) : (dotAgg.lhsIdx i q 1).val = (q ⟨0, by decide⟩).val :=
  dotAgg.lhsIdx_val_of_single rfl i q
theorem agg_rhs0 (i : S1000x512.Idx) (q : dotAgg.contr.Idx) : (dotAgg.rhsIdx i q 0).val = (q ⟨0, by decide⟩).val :=
  dotAgg.rhsIdx_val_of_single rfl i q
theorem agg_rhs1 (i : S1000x512.Idx) (q : dotAgg.contr.Idx) : (dotAgg.rhsIdx i q 1).val = (i 1).val := by
  unfold DotDims.rhsIdx
  rw [dif_neg (show ¬(1 : Fin S5000x512.rank) ∈ dotAgg.rhsBatch by decide), dif_pos (show (1 : Fin S5000x512.rank) ∈ dotAgg.rhsNonContracting by decide)]
  rfl

/-- The second body's product alone at entry (p, q). -/
theorem agg_product (x0 : FVec Ideal S1000x5000 .bf16) (x1 : FVec Ideal S5000x512 .bf16) (p : Fin 1000) (q : Fin 512) :
    FloatOps.matmul dotAgg none x0 x1 (constant (F := Ideal) S1000x512 .f32 0x00000000#32) (ix2 p q)
      = ∑ k : Fin 5000, x0 (ix2 p k) * x1 (ix2 k q) := by
  refine (Ideal.matmul_constant_zero_apply dotAgg none x0 x1 (ix2 p q)).trans ?_
  rw [← Equiv.sum_comp (contrEquiv1 dotAgg 5000 rfl rfl).symm]
  refine Finset.sum_congr rfl fun k _ => ?_
  have hk := contrEquiv1_symm_val dotAgg 5000 rfl rfl k
  have el : dotAgg.lhsIdx (ix2 p q) ((contrEquiv1 dotAgg 5000 rfl rfl).symm k) = ix2 p k := funext fun a => Fin.ext (by
    match a with
    | ⟨0, _⟩ => exact agg_lhs0 _ _
    | ⟨1, _⟩ => exact (agg_lhs1 _ _).trans hk)
  have er : dotAgg.rhsIdx (ix2 p q) ((contrEquiv1 dotAgg 5000 rfl rfl).symm k) = ix2 k q := funext fun a => Fin.ext (by
    match a with
    | ⟨0, _⟩ => exact (agg_rhs0 _ _).trans hk
    | ⟨1, _⟩ => exact agg_rhs1 _ _)
  rw [el, er]

/-- The added row at entry (p, q): the length-512 vector's q-th number, whatever the row p. -/
theorem row_entry (x2 : FVec Ideal S512 .f32) (p : Fin 1000) (q : Fin 512) :
    broadcastTo S1000x512 (shapeCast S1x512 x2 shapeCasts_S512_S1x512) broadcasts_S1x512_S1000x512 (ix2 p q) = x2 (ix1 q) :=
  (broadcastTo_1b_ab_apply (shapeCast S1x512 x2 shapeCasts_S512_S1x512) broadcasts_S1x512_S1000x512 p q).trans
    (shapeCast_a_1a_apply x2 shapeCasts_S512_S1x512 0 q)

/-- Entry (p, q) of the second body's stored block: the product's entry plus the row's q-th number. -/
theorem agg_entry (x0 : FVec Ideal S1000x5000 .bf16) (x1 : FVec Ideal S5000x512 .bf16) (x2 : FVec Ideal S512 .f32)
    (p : Fin 1000) (q : Fin 512) :
    k1_pay1 (F := Ideal) x0 x1 x2 (ix2 p q) = (∑ k : Fin 5000, x0 (ix2 p k) * x1 (ix2 k q)) + x2 (ix1 q) := by
  unfold k1_pay1
  show FloatOps.matmul dotAgg none (shapeCast S1000x5000 x0 shapeCasts_S1000x5000_S1000x5000) (shapeCast S5000x512 x1 shapeCasts_S5000x512_S5000x512)
        (constant (F := Ideal) S1000x512 .f32 0x00000000#32) (ix2 p q)
      + broadcastTo S1000x512 (shapeCast S1x512 x2 shapeCasts_S512_S1x512) broadcasts_S1x512_S1000x512 (ix2 p q) = _
  rw [shapeCast_self, shapeCast_self, agg_product, row_entry]

end Cert.KernelIdeal.Entry

end
-- ==== Proof.LinRegion.lean ====
/-
  The first region's result array as ONE function of the arrays the region finds.

  The region walks 120 grid points; point t multiplies rows 8000 t ... 8000 t + 7999 of the 960000 x 64 input array by the
  whole 64 x 64 weight matrix and writes the product back as rows 8000 t ... 8000 t + 7999 of the result. Entry (r, c) of the
  result therefore depends only on row r of the input and column c of the weights: it is the sum over k < 64 of
  input[r, k] * weights[k, c], the same formula in every block. The 120 blocks tile the 960000 rows (row r lies in block
  r / 8000), so after the last write-back the result array is that formula at every entry.
-/
import proofs.«178421_j17841294148275_2_alg».proof.Proof.Gen.KernelIdeal.Frame
import proofs.«178421_j17841294148275_2_alg».proof.Proof.Payloads
import proofs.«178421_j17841294148275_2_alg».proof.Proof.Spec

set_option maxRecDepth 16384

noncomputable section

namespace Cert.KernelIdeal.Lin

open Cert.KernelIdeal Cert.KernelIdeal.Gen Cert.KernelIdeal.Entry Cert.KernelIdeal.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- One stored entry against the whole arrays: if row p of the block is row `i 0` of A and column q of the second operand
    is column `i 1` of B, the stored entry (p, q) is entry `i` of `rowsTimes A B`. -/
theorem lin_point (A : S960000x64.Idx → EReal) (B : S64x64.Idx → EReal) (x0 : FVec Ideal S8000x64 .f32) (x1 : FVec Ideal S64x64 .f32)
    (p : Fin 8000) (q : Fin 64) (i : S960000x64.Idx)
    (h0 : ∀ k : Fin 64, x0 (ix2 p k) = A (ix2 (i 0) k)) (h1 : ∀ k : Fin 64, x1 (ix2 k q) = B (ix2 k (i 1))) :
    k0_pay1 (F := Ideal) x0 x1 (ix2 p q) = rowsTimes A B i := by
  rw [lin_entry]
  unfold rowsTimes
  exact Finset.sum_congr rfl fun k _ => by rw [h0 k, h1 k]

variable (V : (c : Dev nD) → (b : Ref sig .tc) → Buf (Elt Ideal) ((c : Thread nD τ).loc b))

/-- The printed index maps over the grid: the row window and the result window move together along the rows, the weight
    window stays at the origin, and there are 120 row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 119
    ∧ win0_2.index t (1 : Fin 2) = 0 :=
  (by decide +kernel : ∀ t : Fin grid0.N, _)

/-- Every row block is some point's. -/
theorem idx_onto : ∀ q0 : Fin 120, ∃ t : Fin cfg0.N, win0_2.index t = ![q0.val, 0] :=
  (by decide +kernel : ∀ q0 : Fin 120, ∃ t : Fin grid0.N, win0_2.index t = ![q0.val, 0])

/-- What point t writes back is block t of `rowsTimes` of the arrays the region finds. -/
theorem flushed_eq (c : Dev nD) (t : Fin cfg0.N) :
    (dat0 V c).flushed 2 t = ((cfg0.win 2).blk t).view.read (Elt Ideal)
      (rowsTimes (V c main_v0 : S960000x64.Idx → EReal) (V c main_arg2 : S64x64.Idx → EReal)) := by
  show (cfg0.win 2).cut (grid0.coords t) ((dat0 V c).after 2 t) = _
  rw [after0_2]
  unfold out0_2
  rw [View.canon_unit_zero hz]
  simp only [View.ld_unit_zero (S := S8000x64) hz, View.ld_unit_zero (S := S64x64) hz]
  obtain ⟨e0, e1, e2, e3, e4, e5⟩ := idx_facts t
  funext j
  obtain ⟨p, q, rfl⟩ : ∃ (p : Fin 8000) (q : Fin 64), j = ix2 p q := ⟨j 0, j 1, eq_ix2 j⟩
  refine lin_point _ _ _ _ p q (((cfg0.win 2).blk t).view.emb (ix2 p q)) (fun k => ?_) (fun k => ?_)
  · unfold iblk0
    rw [View.read_apply]
    show V c main_v0 (((cfg0.win 0).blk t).view.emb (ix2 p k)) = V c main_v0 _
    refine congrArg _ (funext fun a => Fin.ext ?_)
    match a with
    | ⟨0, _⟩ => show win0_0.index t (0 : Fin 2) * 8000 + 1 * p.val = win0_2.index t (0 : Fin 2) * 8000 + 1 * p.val; omega
    | ⟨1, _⟩ => show win0_0.index t (1 : Fin 2) * 64 + 1 * k.val = k.val; omega
  · unfold iblk0
    rw [View.read_apply]
    show V c main_arg2 (((cfg0.win 1).blk t).view.emb (ix2 k q)) = V c main_arg2 _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega

/-- An entry of the result array is in point t's block iff each coordinate is in the block's range on its axis. -/
theorem mem_blk (t : Fin cfg0.N) (i : S960000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v1).slice (win0_2.rect t)).set ↔ _
  rw [View.set_slice_whole, Rect.mem_set_unit]
  exact Iff.rfl

/-- Every entry of the result array lies in the block of row block `r / 8000`. -/
theorem cover (i : S960000x64.Idx) : ∃ t : Fin cfg0.N, (cfg0.win 2).flush t = true ∧ i ∈ ((cfg0.win 2).blk t).view.set := by
  have hi0 : (i 0).val < 960000 := (i 0).isLt
  have hi1 : (i 1).val < 64 := (i 1).isLt
  obtain ⟨t, ht⟩ := idx_onto ⟨(i 0).val / 8000, by omega⟩
  have q0 : win0_2.index t (0 : Fin 2) = (i 0).val / 8000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- The result array after the region: `rowsTimes` of the input and weight arrays as the region finds them. -/
theorem final (c : Dev nD) : (dat0 V c).arrAt 2 cfg0.N
    = rowsTimes (V c main_v0 : S960000x64.Idx → EReal) (V c main_arg2 : S64x64.Idx → EReal) :=
  (dat0 V c).arrAt_eq_of_cover 2 _ (fun t _ => flushed_eq V c t) cover

end Cert.KernelIdeal.Lin

end
-- ==== Proof.AggRegion.lean ====
/-
  The second region's result array as ONE function of the arrays the region finds.

  The region walks a 5 x 24 grid; point (a, b) multiplies rows 1000 a ... 1000 a + 999 of the 5000 x 5000 filter by columns
  512 b ... 512 b + 511 of the 5000 x 12288 array, adds one row of 512 numbers to every row of the product and writes the
  result back as block (a, b) of the 5000 x 12288 result. Entry (r, n) of the result therefore is the sum over k < 5000 of
  filter[r, k] * array[k, n], plus the row's number at position n mod 512 (column n sits at position n - 512 b of its block,
  and the same row of 512 numbers is used in every block). The 5 x 24 blocks tile the result (entry (r, n) lies in block
  (r / 1000, n / 512)), so after the last write-back the result array is that formula at every entry.
-/
import proofs.«178421_j17841294148275_2_alg».proof.Proof.Gen.KernelIdeal.Frame
import proofs.«178421_j17841294148275_2_alg».proof.Proof.Payloads
import proofs.«178421_j17841294148275_2_alg».proof.Proof.Spec

set_option maxRecDepth 16384

noncomputable section

namespace Cert.KernelIdeal.Agg

open Cert.KernelIdeal Cert.KernelIdeal.Gen Cert.KernelIdeal.Entry Cert.KernelIdeal.Spec
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a; rfl

/-- One stored entry against the whole arrays: if row p of the first block is row `i 0` of the filter, column q of the second
    block is column `i 1` of H, and the q-th number of the loaded row is the row's number at `i 1`'s position in its tile,
    the stored entry (p, q) is entry `i` of `filterTimes`. -/
theorem agg_point (Fl : S5000x5000.Idx → EReal) (H : S5000x12288.Idx → EReal) (row : S512.Idx → EReal)
    (x0 : FVec Ideal S1000x5000 .bf16) (x1 : FVec Ideal S5000x512 .bf16) (x2 : FVec Ideal S512 .f32)
    (p : Fin 1000) (q : Fin 512) (i : S5000x12288.Idx)
    (h0 : ∀ k : Fin 5000, x0 (ix2 p k) = Fl (ix2 (i 0) k)) (h1 : ∀ k : Fin 5000, x1 (ix2 k q) = H (ix2 k (i 1)))
    (h2 : x2 (ix1 q) = row (ix1 (inTile (i 1)))) :
    k1_pay1 (F := Ideal) x0 x1 x2 (ix2 p q) = filterTimes Fl H row i := by
  rw [agg_entry]
  unfold filterTimes
  rw [h2]
  exact congrArg (· + row (ix1 (inTile (i 1)))) (Finset.sum_congr rfl fun k _ => by rw [h0 k, h1 k])

variable (V : (c : Dev nD) → (b : Ref sig .tc) → Buf (Elt Ideal) ((c : Thread nD τ).loc b))

/-- The printed index maps over the grid: the filter window follows the result window along the rows, the array window
    follows it along the columns, the row of 512 numbers stays at the origin, and there are 5 x 24 blocks. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 1) = 0
    ∧ win1_3.index t (0 : Fin 2) ≤ 4
    ∧ win1_3.index t (1 : Fin 2) ≤ 23 :=
  (by decide +kernel : ∀ t : Fin grid1.N, _)

/-- Every block of the 5 x 24 tiling is some point's. -/
theorem idx_onto : ∀ (q0 : Fin 5) (q1 : Fin 24), ∃ t : Fin cfg1.N, win1_3.index t = ![q0.val, q1.val] :=
  (by decide +kernel : ∀ (q0 : Fin 5) (q1 : Fin 24), ∃ t : Fin grid1.N, win1_3.index t = ![q0.val, q1.val])

/-- What point t writes back is block t of `filterTimes` of the arrays the region finds. -/
theorem flushed_eq (c : Dev nD) (t : Fin cfg1.N) :
    (dat1 V c).flushed 3 t = ((cfg1.win 3).blk t).view.read (Elt Ideal)
      (filterTimes (V c main_v3 : S5000x5000.Idx → EReal) (V c main_v2 : S5000x12288.Idx → EReal) (V c main_v6 : S512.Idx → EReal)) := by
  show (cfg1.win 3).cut (grid1.coords t) ((dat1 V c).after 3 t) = _
  rw [after1_3]
  unfold out1_3
  rw [View.canon_unit_zero hz]
  simp only [View.ld_unit_zero (S := S1000x5000) hz, View.ld_unit_zero (S := S5000x512) hz, View.ld_unit_zero (S := S512) hz1]
  obtain ⟨e0, e1, e2, e3, e4, e5, e6⟩ := idx_facts t
  funext j
  obtain ⟨p, q, rfl⟩ : ∃ (p : Fin 1000) (q : Fin 512), j = ix2 p q := ⟨j 0, j 1, eq_ix2 j⟩
  refine agg_point _ _ _ _ _ _ p q (((cfg1.win 3).blk t).view.emb (ix2 p q)) (fun k => ?_) (fun k => ?_) ?_
  · unfold iblk1
    rw [View.read_apply]
    show V c main_v3 (((cfg1.win 0).blk t).view.emb (ix2 p k)) = V c main_v3 _
    refine congrArg _ (funext fun a => Fin.ext ?_)
    match a with
    | ⟨0, _⟩ => show win1_0.index t (0 : Fin 2) * 1000 + 1 * p.val = win1_3.index t (0 : Fin 2) * 1000 + 1 * p.val; omega
    | ⟨1, _⟩ => show win1_0.index t (1 : Fin 2) * 5000 + 1 * k.val = k.val; omega
  · unfold iblk1
    rw [View.read_apply]
    show V c main_v2 (((cfg1.win 1).blk t).view.emb (ix2 k q)) = V c main_v2 _
    refine congrArg _ (funext fun a => Fin.ext ?_)
    match a with
    | ⟨0, _⟩ => show win1_1.index t (0 : Fin 2) * 5000 + 1 * k.val = k.val; omega
    | ⟨1, _⟩ => show win1_1.index t (1 : Fin 2) * 512 + 1 * q.val = win1_3.index t (1 : Fin 2) * 512 + 1 * q.val; omega
  · unfold iblk1
    rw [View.read_apply]
    show V c main_v6 (((cfg1.win 2).blk t).view.emb (ix1 q)) = V c main_v6 _
    refine congrArg _ (funext fun a => Fin.ext ?_)
    match a with
    | ⟨0, _⟩ =>
      show win1_2.index t (0 : Fin 1) * 512 + 1 * q.val = (win1_3.index t (1 : Fin 2) * 512 + 1 * q.val) % 512
      have hq : q.val < 512 := q.isLt
      omega

/-- An entry of the result array is in point t's block iff each coordinate is in the block's range on its axis. -/
theorem mem_blk (t : Fin cfg1.N) (i : S5000x12288.Idx) :
    i ∈ ((cfg1.win 3).blk t).view.set ↔ ∀ a : Fin 2, win1_3.index t a * S1000x512.size a ≤ (i a).val ∧ (i a).val < win1_3.index t a * S1000x512.size a + S1000x512.size a := by
  show i ∈ ((View.whole main_v7).slice (win1_3.rect t)).set ↔ _
  rw [View.set_slice_whole, Rect.mem_set_unit]
  exact Iff.rfl

/-- Every entry (r, n) of the result array lies in block (r / 1000, n / 512). -/
theorem cover (i : S5000x12288.Idx) : ∃ t : Fin cfg1.N, (cfg1.win 3).flush t = true ∧ i ∈ ((cfg1.win 3).blk t).view.set := by
  have hi0 : (i 0).val < 5000 := (i 0).isLt
  have hi1 : (i 1).val < 12288 := (i 1).isLt
  obtain ⟨t, ht⟩ := idx_onto ⟨(i 0).val / 1000, by omega⟩ ⟨(i 1).val / 512, by omega⟩
  have q0 : win1_3.index t (0 : Fin 2) = (i 0).val / 1000 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 512 ≤ (i 1).val ∧ (i 1).val < win1_3.index t (1 : Fin 2) * 512 + 512; omega

/-- The result array after the region: `filterTimes` of the filter, the 5000 x 12288 array and the row as the region finds them. -/
theorem final (c : Dev nD) : (dat1 V c).arrAt 3 cfg1.N
    = filterTimes (V c main_v3 : S5000x5000.Idx → EReal) (V c main_v2 : S5000x12288.Idx → EReal) (V c main_v6 : S512.Idx → EReal) :=
  (dat1 V c).arrAt_eq_of_cover 3 _ (fun t _ => flushed_eq V c t) cover

end Cert.KernelIdeal.Agg

end
-- ==== Proof.Stages.lean ====
/-
  The contents of the result buffer after the run, as the value of the specification at the launch arguments.

  The run leaves at each buffer what the fold of the five segments leaves there. Walking the fold from the launch memory:
    after the first reshape      the 960000 x 64 input array is the argument x re-laid, the weights are as launched;
    after the first region       its result array is rows-times-weights of those two (the region's cover argument), the
                                 filter and the bias are as launched (no window of the region is over them);
    after the five layout steps  the 5000 x 12288 array is that result re-laid, the narrow-format filter is the filter
                                 itself (a change of float format is the identity on extended reals), the row of 512
                                 numbers is the bias repeated 8 times;
    after the second region      its result array is filter-times-array-plus-row of those three;
    after the last reshape       the result buffer is that array re-laid as 960000 x 64.
  Composed, this is `Spec.kernelValue` of the four launch arguments.
-/
import proofs.«178421_j17841294148275_2_alg».proof.Proof.Gen.KernelIdeal.Frame
import proofs.«178421_j17841294148275_2_alg».proof.Proof.Spec
import proofs.«178421_j17841294148275_2_alg».proof.Proof.LinRegion
import proofs.«178421_j17841294148275_2_alg».proof.Proof.AggRegion
import Idealize.ShloMosaic.Lib.StableHlo.Run

set_option maxRecDepth 16384

noncomputable section

namespace Cert.KernelIdeal.Stages

open Cert.KernelIdeal Cert.KernelIdeal.Gen Cert.KernelIdeal.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Entering the first region -/

/-- The 960000 x 64 input array is the argument x re-laid row-major. -/
theorem enter0_rows (c : Dev nD) :
    (V1 m ρ c main_v0 : S960000x64.Idx → EReal)
      = shapeCast S960000x64 (m ((c : Thread nD τ).loc main_arg0) : S16x64x12x5000.Idx → EReal) shapeCasts_S16x64x12x5000_S960000x64 := by
  show StableHlo.after hostOps0 (W0 m ρ c) (Proc.devRef .tc main_v0) = _
  after_results <;> rfl

/-- The weights are as launched. -/
theorem enter0_weights (c : Dev nD) :
    (V1 m ρ c main_arg2 : S64x64.Idx → EReal) = (m ((c : Thread nD τ).loc main_arg2) : S64x64.Idx → EReal) := by
  show StableHlo.after hostOps0 (W0 m ρ c) (Proc.devRef .tc main_arg2) = _
  after_results <;> rfl

/-! ## Leaving the first region -/

/-- The first region's result array: rows-times-weights of x re-laid and the weights. -/
theorem leave0_result (c : Dev nD) :
    (W2 m ρ c (Proc.devRef .tc main_v1) : S960000x64.Idx → EReal)
      = rowsTimes (shapeCast S960000x64 (m ((c : Thread nD τ).loc main_arg0) : S16x64x12x5000.Idx → EReal) shapeCasts_S16x64x12x5000_S960000x64)
          (m ((c : Thread nD τ).loc main_arg2) : S64x64.Idx → EReal) := by
  refine ((W2_arr m ρ c 2).trans (Lin.final (V1 m ρ) c)).trans ?_
  rw [enter0_rows, enter0_weights]

/-- The filter is as launched: neither the first reshape nor the first region writes it. -/
theorem leave0_filter (c : Dev nD) :
    (W2 m ρ c (Proc.devRef .tc main_arg1) : S5000x5000.Idx → EReal) = (m ((c : Thread nD τ).loc main_arg1) : S5000x5000.Idx → EReal) := by
  refine (W2_of_ne m ρ c main_arg1 (by decide)).trans ?_
  show StableHlo.after hostOps0 (W0 m ρ c) (Proc.devRef .tc main_arg1) = _
  after_results <;> rfl

/-- The bias is as launched. -/
theorem leave0_bias (c : Dev nD) :
    (W2 m ρ c (Proc.devRef .tc main_arg3) : S64.Idx → EReal) = (m ((c : Thread nD τ).loc main_arg3) : S64.Idx → EReal) := by
  refine (W2_of_ne m ρ c main_arg3 (by decide)).trans ?_
  show StableHlo.after hostOps0 (W0 m ρ c) (Proc.devRef .tc main_arg3) = _
  after_results <;> rfl

/-! ## Entering the second region -/

/-- The 5000 x 12288 array is the first region's result re-laid. -/
theorem enter1_cols (c : Dev nD) :
    (V3 m ρ c main_v2 : S5000x12288.Idx → EReal)
      = shapeCast S5000x12288 (W2 m ρ c (Proc.devRef .tc main_v1) : S960000x64.Idx → EReal) shapeCasts_S960000x64_S5000x12288 := by
  show StableHlo.after hostOps1 (W2 m ρ c) (Proc.devRef .tc main_v2) = _
  after_results <;> rfl

/-- The narrow-format filter is the filter: a change of float format is the identity on extended reals. -/
theorem enter1_filter (c : Dev nD) :
    (V3 m ρ c main_v3 : S5000x5000.Idx → EReal) = (W2 m ρ c (Proc.devRef .tc main_arg1) : S5000x5000.Idx → EReal) := by
  show StableHlo.after hostOps1 (W2 m ρ c) (Proc.devRef .tc main_v3) = _
  after_results <;> rfl

/-- The row of 512 numbers is the bias repeated 8 times. -/
theorem enter1_row (c : Dev nD) :
    (V3 m ρ c main_v6 : S512.Idx → EReal) = tileRow (W2 m ρ c (Proc.devRef .tc main_arg3) : S64.Idx → EReal) := by
  show StableHlo.after hostOps1 (W2 m ρ c) (Proc.devRef .tc main_v6) = _
  after_results <;> rfl

/-! ## Leaving the second region, and the last reshape -/

/-- The second region's result array: filter-times-array-plus-row of what the region finds. -/
theorem leave1_result (c : Dev nD) :
    (W4 m ρ c (Proc.devRef .tc main_v7) : S5000x12288.Idx → EReal)
      = filterTimes (V3 m ρ c main_v3 : S5000x5000.Idx → EReal) (V3 m ρ c main_v2 : S5000x12288.Idx → EReal) (V3 m ρ c main_v6 : S512.Idx → EReal) :=
  (W4_arr m ρ c 3).trans (Agg.final (V3 m ρ) c)

/-- The result buffer is the second region's result array re-laid as 960000 x 64. -/
theorem tail_result (c : Dev nD) :
    (W5 m ρ c (Proc.devRef .tc main_v8) : S960000x64.Idx → EReal)
      = shapeCast S960000x64 (W4 m ρ c (Proc.devRef .tc main_v7) : S5000x12288.Idx → EReal) shapeCasts_S5000x12288_S960000x64 := by
  show StableHlo.after hostOps2 (W4 m ρ c) (Proc.devRef .tc main_v8) = _
  after_results <;> rfl

/-- THE VALUE: the result buffer after the run is the specification at the four launch arguments. -/
theorem result_eq (c : Dev nD) :
    (W5 m ρ c (Proc.devRef .tc main_v8) : S960000x64.Idx → EReal)
      = kernelValue (m ((c : Thread nD τ).loc main_arg0) : S16x64x12x5000.Idx → EReal) (m ((c : Thread nD τ).loc main_arg1) : S5000x5000.Idx → EReal)
          (m ((c : Thread nD τ).loc main_arg2) : S64x64.Idx → EReal) (m ((c : Thread nD τ).loc main_arg3) : S64.Idx → EReal) := by
  rw [tail_result, leave1_result, enter1_filter, enter1_cols, enter1_row, leave0_result, leave0_filter, leave0_bias]
  rfl

end Cert.KernelIdeal.Stages

end
-- ==== Proof.Bridge.lean ====
/-
  The reference program's value is the specification's.

  The reference computes, on the host, out = relay (Fl (relay ((relay x) W))) + b broadcast along the rows, every `relay` a
  row-major re-laying. Read at entry (r, c) of the 960000 x 64 result: the re-laying takes (r, c) to the entry (R, n) of the
  5000 x 12288 product with 12288 R + n = 64 r + c; there the product is the sum over k < 5000 of Fl[R, k] * H'[k, n], the same
  sum the specification has (both matrix products are plain sums over the contracted axis on extended reals); and the number
  added is b[c] on the reference's side and b[(n mod 512) mod 64] on the specification's, equal because 64 divides 512 and
  12288: n = (64 r + c) mod 12288 leaves remainder c modulo 64.
-/
import proofs.«178421_j17841294148275_2_alg».proof.Proof.ReadPatched
import proofs.«178421_j17841294148275_2_alg».proof.Proof.Spec

noncomputable section

namespace Cert.ReferenceIdeal.RefValue

open Cert.ReferenceIdeal Cert.ReferenceIdeal.Gen Cert.ReferenceIdeal.ReadP Cert.KernelIdeal.Spec
open Idealize.ShloMosaic Idealize.ShloMosaic.TcCoe Idealize.ShloMosaic.ValueIdx Idealize.SL.Sem

/-- The reference's first product is rows-times-weights of x re-laid. -/
theorem lin_eq (x0 : (⟨S16x64x12x5000, .f32⟩ : BufTy).Contents (Elt Ideal)) (x2 : (⟨S64x64, .f32⟩ : BufTy).Contents (Elt Ideal)) :
    val_main_v1 (F := Ideal) x0 x2 = rowsTimes (shapeCast S960000x64 x0 shapeCasts_S16x64x12x5000_S960000x64) x2 := by
  funext i
  rw [val_main_v1_apply]
  unfold rowsTimes val_main_v0
  refine Finset.sum_congr rfl fun k _ => ?_
  have el : lidx_main_v1 i k = ix2 (i 0) k := funext fun a => Fin.ext (by match a with | ⟨0, _⟩ => rfl | ⟨1, _⟩ => rfl)
  have er : ridx_main_v1 i k = ix2 k (i 1) := funext fun a => Fin.ext (by match a with | ⟨0, _⟩ => rfl | ⟨1, _⟩ => rfl)
  rw [el, er]
  rfl

/-- A 5000 x 12288 array re-laid as 960000 x 64, read at an entry. -/
theorem relay_apply (Y : S5000x12288.Idx → EReal) (i : S960000x64.Idx) :
    shapeCast S960000x64 Y shapeCasts_S5000x12288_S960000x64 i = Y (idx_main_v4 i) :=
  shapeCast_apply Y shapeCasts_S5000x12288_S960000x64 i (idx_main_v4 i)
    (by rewrite [Shape.rowMajor_val_two, Shape.rowMajor_val_two]; have h0 : (i 0).val < 960000 := (i 0).isLt; have h1 : (i 1).val < 64 := (i 1).isLt; show ((i 0).val * 64 + (i 1).val) / 12288 * 12288 + ((i 0).val * 64 + (i 1).val) % 12288 = (i 0).val * 64 + (i 1).val; omega)

/-- THE BRIDGE: the reference's result term is the specification at the same four arrays. -/
theorem value_eq (x0 : (⟨S16x64x12x5000, .f32⟩ : BufTy).Contents (Elt Ideal)) (x1 : (⟨S5000x5000, .f32⟩ : BufTy).Contents (Elt Ideal))
    (x2 : (⟨S64x64, .f32⟩ : BufTy).Contents (Elt Ideal)) (x3 : (⟨S64, .f32⟩ : BufTy).Contents (Elt Ideal)) :
    val_main_v7 (F := Ideal) x0 x1 x2 x3 = kernelValue x0 x1 x2 x3 := by
  funext i
  have h0 : (i 0).val < 960000 := (i 0).isLt
  have h1 : (i 1).val < 64 := (i 1).isLt
  rw [val_main_v7_apply, val_main_v4_apply, val_main_v3_apply, val_main_v6_apply, val_main_v5_apply, Ideal.addf_def]
  unfold kernelValue
  rw [relay_apply]
  unfold filterTimes
  rw [tileRow_apply]
  have hsum : ∑ k : Fin 5000, x1 (lidx_main_v3 (idx_main_v4 i) k) * val_main_v2 (F := Ideal) x0 x2 (ridx_main_v3 (idx_main_v4 i) k)
      = ∑ k : Fin 5000, x1 (ix2 (idx_main_v4 i 0) k)
          * shapeCast S5000x12288 (rowsTimes (shapeCast S960000x64 x0 shapeCasts_S16x64x12x5000_S960000x64) x2) shapeCasts_S960000x64_S5000x12288 (ix2 k (idx_main_v4 i 1)) := by
    refine Finset.sum_congr rfl fun k _ => ?_
    have el : lidx_main_v3 (idx_main_v4 i) k = ix2 (idx_main_v4 i 0) k := funext fun a => Fin.ext (by match a with | ⟨0, _⟩ => rfl | ⟨1, _⟩ => rfl)
    have er : ridx_main_v3 (idx_main_v4 i) k = ix2 k (idx_main_v4 i 1) := funext fun a => Fin.ext (by match a with | ⟨0, _⟩ => rfl | ⟨1, _⟩ => rfl)
    rw [el, er]
    unfold val_main_v2
    rw [lin_eq]
    rfl
  have hbias : idx_main_v5 (idx_main_v6 i)
      = ix1 (⟨(inTile (idx_main_v4 i 1)).val % 64, Nat.mod_lt _ (by decide)⟩ : Fin 64) := funext fun a => Fin.ext (by
    match a with
    | ⟨0, _⟩ => show (i 1).val = (((i 0).val * 64 + (i 1).val) % 12288 % 512) % 64; omega)
  rw [hsum, hbias]

end Cert.ReferenceIdeal.RefValue

end
-- ==== Proof.lean ====
/-
  The proof of `Cert.Claim`: a graph-convolution layer written as two kernel regions against its plain reference.

  Both programs compute, from an input x of shape [16, 64, 12, 5000], a 5000 x 5000 filter Fl, 64 x 64 weights W and 64
  biases b, the 960000 x 64 array
      out = relay (Fl · relay ((relay x) · W)) + b along the rows,
  every `relay` a row-major re-laying. The kernel program does the first product in a region of 120 row blocks (storing it in
  a narrower float format), re-lays it, and does the second product in a region of 5 x 24 blocks, adding to every block the
  same row of 512 numbers, the biases repeated 8 times; the reference adds the biases after the last re-laying. On extended
  reals a change of float format is the identity and a matrix product is the plain sum over the contracted axis, so both
  sides are the same sums with the same grouping; the only difference is where the bias is added, and since 64 divides both
  512 and 12288 the number added at an entry of column c of the final array is b[c] either way. No finiteness of the inputs is
  used: the two values are equal as terms of sums and one addition, whatever the extended reals in the arrays.

  The pieces: `Proof/Spec.lean` (the value as one function of the four arrays), `Proof/Payloads.lean` (what each region's body
  stores, at one entry), `Proof/LinRegion.lean` and `Proof/AggRegion.lean` (each region's result array, by covering it with the
  blocks the grid points write back), `Proof/RunValue.lean` (the whole run read at every buffer), `Proof/Stages.lean` (the
  result buffer through the five segments), `Proof/Bridge.lean` (the reference's composed term is the same function, read
  through `Proof/ReadPatched.lean`), and the three frames: the two kernel programs' are the generated ones, the reference's is
  its generated run with the result dropped. No rewrite was applied when the kernel was idealized, so `preserves` is `True`.
-/
import proofs.«178421_j17841294148275_2_alg».proof.Defs
import proofs.«178421_j17841294148275_2_alg».proof.Proof.Gen.Kernel
import proofs.«178421_j17841294148275_2_alg».proof.Proof.Gen.Kernel.Frame
import proofs.«178421_j17841294148275_2_alg».proof.Proof.Gen.KernelIdeal
import proofs.«178421_j17841294148275_2_alg».proof.Proof.Gen.KernelIdeal.Frame
import proofs.«178421_j17841294148275_2_alg».proof.Proof.Gen.ReferenceIdeal
import proofs.«178421_j17841294148275_2_alg».proof.Proof.Gen.ReferenceIdeal.Run
import proofs.«178421_j17841294148275_2_alg».proof.Proof.Gen.Pre_finite_inputs
import proofs.«178421_j17841294148275_2_alg».proof.Proof.ReadPatched
import proofs.«178421_j17841294148275_2_alg».proof.Proof.RunValue
import proofs.«178421_j17841294148275_2_alg».proof.Proof.Stages
import proofs.«178421_j17841294148275_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference runs and leaves its arguments unchanged: its run, with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- The idealized kernel is the kernel's own text read at extended reals: nothing was rewritten. -/
theorem preserves : Cert.preserves_Kernel_KernelIdeal := trivial

/-- From memories agreeing on the four arguments both programs end with the same result: the specification's value at the
    kernel's launch arguments. The kernel's run leaves it in the result buffer (`Stages.result_eq`), and the reference's
    composed term is the same function of its own arguments (`RefValue.value_eq`), which agree with the kernel's. -/
theorem algebraic : Cert.algebraic_KernelIdeal_ReferenceIdeal := by
  intro m ρ m' ρ' _ hagree
  refine ⟨fun c => Cert.KernelIdeal.Spec.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Stages.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.ReadP.val_main_v7_eq _ _ _ _).trans (Cert.ReferenceIdeal.RefValue.value_eq _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
